-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x2048 : Shape := ⟨3, ![64, 64, 2048]⟩
abbrev S_ : Shape := ⟨0, ![]⟩

class Facts : Prop where
  bcast_S_S64x64x2048 : S_.BroadcastsInDim S64x64x2048 (![] : Fin 0 → Fin S64x64x2048.rank)
  reducesTo_S64x64x2048_S_d0_1_2 : S64x64x2048.ReducesTo [0, 1, 2] S_
  h_S_ : 0 < S_.numel

variable [Facts]

def fn {F : FTy → Type} [FloatOps F] (main_arg0 : FVec F S64x64x2048 .f32) (main_arg1 : FVec F S64x64x2048 .f32) : IVec S_ 1 :=
  let main_v0 : FVec F S64x64x2048 .f32 := Host.absf main_arg0
  let main_cst : FVec F S_ .f32 := constant S_ .f32 0x7F800000#32
  let main_v1 : FVec F S64x64x2048 .f32 := broadcastInDim S64x64x2048 ![] bcast_S_S64x64x2048 main_cst
  let main_v2 : IVec S64x64x2048 1 := cmpf .olt main_v0 main_v1
  let main_c : IVec S_ 1 := constantI S_ 1 1#1
  let main_v3 : IVec S_ 1 := (fun x v => Host.reduce IntOp.andi x v reducesTo_S64x64x2048_S_d0_1_2 h_S_) main_v2 main_c
  let main_v4 : FVec F S64x64x2048 .f32 := Host.absf main_arg1
  let main_cst_0 : FVec F S_ .f32 := constant S_ .f32 0x7F800000#32
  let main_v5 : FVec F S64x64x2048 .f32 := broadcastInDim S64x64x2048 ![] bcast_S_S64x64x2048 main_cst_0
  let main_v6 : IVec S64x64x2048 1 := cmpf .olt main_v4 main_v5
  let main_c_1 : IVec S_ 1 := constantI S_ 1 1#1
  let main_v7 : IVec S_ 1 := (fun x v => Host.reduce IntOp.andi x v reducesTo_S64x64x2048_S_d0_1_2 h_S_) main_v6 main_c_1
  let main_v8 : IVec S_ 1 := andi main_v3 main_v7
  main_v8
-- ==== Kernel.lean ====
abbrev S64x64x2048 : Shape := ⟨3, ![64, 64, 2048]⟩
abbrev S64x2048 : Shape := ⟨2, ![64, 2048]⟩
abbrev S64x64x512 : Shape := ⟨3, ![64, 64, 512]⟩
abbrev S64x64x256 : Shape := ⟨3, ![64, 64, 256]⟩
abbrev S64x512 : Shape := ⟨2, ![64, 512]⟩
abbrev S8x64x512 : Shape := ⟨3, ![8, 64, 512]⟩
abbrev S8x64x256 : Shape := ⟨3, ![8, 64, 256]⟩
abbrev S8x512x256 : Shape := ⟨3, ![8, 512, 256]⟩
abbrev S8x512 : Shape := ⟨2, ![8, 512]⟩
abbrev S_ : Shape := ⟨0, ![]⟩
abbrev S64 : Shape := ⟨1, ![64]⟩

abbrev nBuf : Space → Nat
  | .hbm => 10
  | .vmem => 7
  | .smem => 0
  | _ => 0

abbrev bufTy : (tb : Table) → Fin (tcTables nBuf tb) → BufTy
  | .hbm, ⟨0, _⟩ => ⟨S64x64x2048, .f32⟩
  | .hbm, ⟨1, _⟩ => ⟨S64x64x2048, .f32⟩
  | .hbm, ⟨2, _⟩ => ⟨S64x64x2048, .bf16⟩
  | .hbm, ⟨3, _⟩ => ⟨S64x64x2048, .bf16⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .local _ .vmem, ⟨0, _⟩ => ⟨S64x64x512, .bf16⟩
  | .local _ .vmem, ⟨1, _⟩ => ⟨S64x64x512, .bf16⟩
  | .local _ .vmem, ⟨2, _⟩ => ⟨S64x64x256, .bf16⟩
  | .local _ .vmem, ⟨3, _⟩ => ⟨S64x64x256, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S64x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8_i32_4 : BitVec 32 := 8#32
  let v7 : BitVec 32 := Scalar.muli arg6 c8_i32_4
  v7
def k0_off1 (k0_t1 : Fin k0_t1_loop.trips) : Fin 3 → Nat :=
  let c0_i32_1 : BitVec 32 := 0#32
  let c1_i32 : BitVec 32 := 1#32
  let arg6 : BitVec 32 := Scf.iv c0_i32_1 c1_i32 k0_t1
  let c8_i32_4 : BitVec 32 := 8#32
  let v7 : BitVec 32 := Scalar.muli arg6 c8_i32_4
  let v8 : BitVec 32 := v7
  let v9 : Index := Scalar.indexCast v8
  let c0 : Index := 0#32
  let c0_5 : Index := 0#32
  ![v9.toNat, 0, 0]
def k0_off2 (k0_t1 : Fin k0_t1_loop.trips) : Fin 3 → Nat :=
  let c0_i32_1 : BitVec 32 := 0#32
  let c1_i32 : BitVec 32 := 1#32
  let arg6 : BitVec 32 := Scf.iv c0_i32_1 c1_i32 k0_t1
  let c8_i32_4 : BitVec 32 := 8#32
  let v7 : BitVec 32 := Scalar.muli arg6 c8_i32_4
  let v8 : BitVec 32 := v7
  let v12 : Index := Scalar.indexCast v8
  let c0_6 : Index := 0#32
  let c0_7 : Index := 0#32
  ![v12.toNat, 0, 0]
def k0_off3 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c8_i32_4 : BitVec 32 := 8#32
  let v7 : BitVec 32 := Scalar.muli arg6 c8_i32_4
  let v8 : BitVec 32 := v7
  let v17 : Index := Scalar.indexCast v8
  let c0_9 : Index := 0#32
  ![v17.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  h_S8x64x512 : 0 < S8x64x512.numel
  shapeCasts_S8x64x512_S8x64x512 : S8x64x512.ShapeCasts S8x64x512
  h_S8x64x256 : 0 < S8x64x256.numel
  shapeCasts_S8x64x256_S8x64x256 : S8x64x256.ShapeCasts S8x64x256
  reduces_S8x512x256_S8x512 : S8x512x256.Reduces [2] S8x512
  h_S8x512 : 0 < S8x512.numel
  shapeCasts_S8x512_S8x512 : S8x512.ShapeCasts S8x512
  reducesTo_S64x2048_S64_d1 : S64x2048.ReducesTo [1] S64
  h_S_ : 0 < S_.numel
  bcast_S_S64 : S_.BroadcastsInDim S64 (![] : Fin 0 → Fin S64.rank)
  dot_S8x64x512_S8x64x256_S8x512x256_1_1_2_2_0_0_wf : DotDims.WF S8x64x512 S8x64x256 S8x512x256 [1] [1] [2] [2] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x64x512.size a ≤ S64x64x512.size a
  k0_off2_inb : ∀ k0_t1 : Fin k0_t1_loop.trips, ∀ a, (k0_off2 k0_t1) a + S8x64x256.size a ≤ S64x64x256.size a
  k0_off3_inb : ∀ k0_t1 : Fin k0_t1_loop.trips, ∀ a, (k0_off3 k0_t1) a + S8x512.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x512.size a ≤ S64x64x2048.size a
  hwx0_0 : ∀ i : grid0.Coords, EltTy.bits .bf16 = 32 ∨ (Rect.block (s := S64x64x2048) S64x64x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S64x64x2048.size a
  hwx0_1 : ∀ i : grid0.Coords, EltTy.bits .bf16 = 32 ∨ (Rect.block (s := S64x64x2048) S64x64x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x2048.size a
  hwx0_2 : ∀ i : grid0.Coords, EltTy.bits .f32 = 32 ∨ (Rect.block (s := S64x2048) S64x512.size (cc0_transform_2 i) (hinb0_2 i)).WholeWords (EltTy.packing .f32)

variable [Facts₀]

def dot_S8x64x512_S8x64x256_S8x512x256_1_1_2_2_0_0 : DotDims S8x64x512 S8x64x256 S8x512x256 where
  lhsContracting := [1]
  rhsContracting := [1]
  lhsNonContracting := [2]
  rhsNonContracting := [2]
  lhsBatch := [0]
  rhsBatch := [0]
  wf := dot_S8x64x512_S8x64x256_S8x512x256_1_1_2_2_0_0_wf

abbrev win0_0 : Pipeline.Window sig grid0 :=
  Pipeline.Window.ofSpec (Memref.whole main_v0) S64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x64x2048 : Shape := ⟨3, ![64, 64, 2048]⟩
abbrev S64x2048x2048 : Shape := ⟨3, ![64, 2048, 2048]⟩
abbrev S_ : Shape := ⟨0, ![]⟩
abbrev S64x2048 : Shape := ⟨2, ![64, 2048]⟩
abbrev S64 : Shape := ⟨1, ![64]⟩

abbrev nBuf : Space → Nat
  | .hbm => 10
  | .vmem => 0
  | .smem => 0
  | _ => 0

abbrev bufTy : (tb : Table) → Fin (tcTables nBuf tb) → BufTy
  | .hbm, ⟨0, _⟩ => ⟨S64x64x2048, .f32⟩
  | .hbm, ⟨1, _⟩ => ⟨S64x64x2048, .f32⟩
  | .hbm, ⟨2, _⟩ => ⟨S64x2048x2048, .f32⟩
  | .hbm, ⟨3, _⟩ => ⟨S_, .f32⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | _, _ => ⟨S64x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S64x2048x2048_S64x2048_d2 : S64x2048x2048.ReducesTo [2] S64x2048
  h_S_ : 0 < S_.numel
  reducesTo_S64x2048_S64_d1 : S64x2048.ReducesTo [1] S64
  bcast_S_S64 : S_.BroadcastsInDim S64 (![] : Fin 0 → Fin S64.rank)
  dot_S64x64x2048_S64x64x2048_S64x2048x2048_1_1_2_2_0_0_wf : DotDims.WF S64x64x2048 S64x64x2048 S64x2048x2048 [1] [1] [2] [2] [0] [0]

variable [Facts₀]

def dot_S64x64x2048_S64x64x2048_S64x2048x2048_1_1_2_2_0_0 : DotDims S64x64x2048 S64x64x2048 S64x2048x2048 where
  lhsContracting := [1]
  rhsContracting := [1]
  lhsNonContracting := [2]
  rhsNonContracting := [2]
  lhsBatch := [0]
  rhsBatch := [0]
  wf := dot_S64x64x2048_S64x64x2048_S64x2048x2048_1_1_2_2_0_0_wf

class Facts : Prop extends Facts₀ where

variable [Facts]
-- ==== Proof.LoopRows.lean ====
/-
  The running-maximum buffer after the loop over the batch, for any float instance.

  The buffer has 64 rows (batch entries) of 512 query columns. Trip k of the loop's eight trips loads rows
  8k … 8k+7 of the query block, of the support block and of the buffer, and stores into those same rows of the
  buffer one value computed from the three loads. The trips' rows are disjoint, so a trip finds in its rows what
  the buffer held when the loop was entered: after n trips, rows below 8n hold each trip's value computed from the
  ENTRY contents, and rows from 8n on are untouched. After all eight trips every row has been rewritten once.
-/
import proofs.«127220_j47485158425242_2_alg».proof.Proof.Gen.KernelIdeal.Loops
import Idealize.ShloMosaic.Lib.Pipeline.Value
import Idealize.ShloMosaic.Lib.Writes
import Idealize.ShloMosaic.Lib.ValueIdx

set_option maxRecDepth 16384

noncomputable section

namespace Cert.KernelIdeal.LoopRows

open Cert.KernelIdeal Cert.KernelIdeal.Gen Idealize.ShloMosaic Idealize.SL.Sem

variable {F : FTy → Type} [FloatOps F]

/-! ## The rows of a trip -/

/-- Rows 8k … 8k+7 of the query block, the support block and the buffer. -/
abbrev rowsQ (k : Fin k0_t1_loop.trips) : Rect S64x64x512 := Rect.unit (k0_off1 k) S8x64x512.size (k0_off1_inb k)
abbrev rowsK (k : Fin k0_t1_loop.trips) : Rect S64x64x256 := Rect.unit (k0_off2 k) S8x64x256.size (k0_off2_inb k)
abbrev rowsM (k : Fin k0_t1_loop.trips) : Rect S64x512 := Rect.unit (k0_off3 k) S8x512.size (k0_off3_inb k)

/-- The first row of trip k, in each of the three arrays, is 8k; the other offsets are zero. -/
theorem off1_eq : ∀ k : Fin k0_t1_loop.trips, k0_off1 k = ![8 * k.val, 0, 0] := by decide +kernel
theorem off2_eq : ∀ k : Fin k0_t1_loop.trips, k0_off2 k = ![8 * k.val, 0, 0] := by decide +kernel
theorem off3_eq : ∀ k : Fin k0_t1_loop.trips, k0_off3 k = ![8 * k.val, 0] := by decide +kernel
theorem trips_eq : k0_t1_loop.trips = 8 := by decide +kernel

/-- The row of the buffer that local row x 0 of trip k is. -/
theorem rowsM_emb_row (k : Fin k0_t1_loop.trips) (x : S8x512.Idx) :
    (((rowsM k).emb x) 0 : ℕ) = 8 * k.val + (x 0).val := by
  rw [Rect.emb_apply]
  show k0_off3 k 0 + 1 * (x 0).val = _
  rw [off3_eq k]; simp

theorem mem_rowsM_iff (k : Fin k0_t1_loop.trips) (y : S64x512.Idx) :
    y ∈ (rowsM k).set → 8 * k.val ≤ (y 0).val ∧ (y 0).val < 8 * k.val + 8 := by
  intro h
  have := (Rect.mem_set_unit.mp h) 0
  rw [off3_eq k] at this
  simpa using this

/-! ## One trip -/

/-- What trip k stores: the payload of rows 8k … 8k+7 of the query block, the support block and the buffer's
    contents `old`. -/
def tripOut (x0 : Vec F S64x64x512 .bf16) (x1 : Vec F S64x64x256 .bf16) (old : Vec F S64x512 .f32)
    (k : Fin k0_t1_loop.trips) : FVec F S8x512 .f32 :=
  k0_pay2 (View.ld (Val := Elt F) x0 (rowsQ k)) (View.ld (Val := Elt F) x1 (rowsK k)) (View.ld (Val := Elt F) old (rowsM k))

/-- A trip's value depends on the buffer only through the trip's own rows. -/
theorem tripOut_congr (x0 : Vec F S64x64x512 .bf16) (x1 : Vec F S64x64x256 .bf16) (old old' : Vec F S64x512 .f32)
    (k : Fin k0_t1_loop.trips) (h : ∀ x : S8x512.Idx, old ((rowsM k).emb x) = old' ((rowsM k).emb x)) :
    tripOut x0 x1 old k = tripOut x0 x1 old' k := by
  unfold tripOut
  exact congrArg (k0_pay2 _ _) (funext fun x => h x)

/-- The trip whose rows hold row b of the buffer is b / 8, -/
def tripOf (y : S64x512.Idx) : Fin k0_t1_loop.trips :=
  ⟨(y 0).val / 8, by rw [trips_eq]; have h : (y 0).val < 64 := (y 0).isLt; omega⟩

/-- and its index inside that trip's rows is (b % 8, q). -/
def localOf (y : S64x512.Idx) : S8x512.Idx :=
  ValueIdx.ix2 (⟨(y 0).val % 8, Nat.mod_lt _ (by omega)⟩ : Fin 8) (⟨(y 1).val, (y 1).isLt⟩ : Fin 512)

/-- The buffer after all eight trips, as ONE function of its index: row b is local row b % 8 of trip b / 8. -/
def loopOut (x0 : Vec F S64x64x512 .bf16) (x1 : Vec F S64x64x256 .bf16) (old : Vec F S64x512 .f32) : FVec F S64x512 .f32 :=
  fun y => tripOut x0 x1 old
    (tripOf y)
    (localOf y)

/-- Every index of the buffer lies in the rows of exactly that trip, at that local index. -/
theorem idx_eq_emb (y : S64x512.Idx) :
    y = (rowsM (tripOf y)).emb
          (localOf y) := by
  funext a
  apply Fin.ext
  rw [Rect.emb_apply]
  match a with
  | ⟨0, _⟩ =>
    show (y 0).val = k0_off3 (tripOf y) 0 + 1 * ((y 0).val % 8)
    rw [off3_eq]; simp [tripOf]; omega
  | ⟨1, _⟩ =>
    show (y 1).val = k0_off3 (tripOf y) 1 + 1 * (y 1).val
    rw [off3_eq]; simp

section Loop

variable (𝒱 : Variants) (c : Dev nD) (bd : Option 𝒱.V) (i : grid0.Coords)
  (arg2 : Memref sig .tc .vmem S64x64x512 .bf16) (harg2 : arg2.IsWhole)
  (arg3 : Memref sig .tc .vmem S64x64x256 .bf16) (harg3 : arg3.IsWhole)
  (arg4 : Memref sig .tc .vmem S64x512 .f32) (harg4 : arg4.IsWhole)
  (arg5 : Memref sig .tc .vmem S64x512 .f32) (harg5 : arg5.IsWhole)
  (X2 : BufTy.Contents (Elt F) arg2.view.ty) (X3 : BufTy.Contents (Elt F) arg3.view.ty)
  (G : BufTy.Contents (Elt F) arg5.view.ty)

/-- A trip leaves ONE piece: its rows of the buffer, holding the trip's value computed from the contents `f` it finds. -/
theorem tripL_eq (k : Fin k0_t1_loop.trips) (f : BufTy.Contents (Elt F) arg5.view.ty) :
    tripL_k0_t1 (F := F) 𝒱 c bd i arg2 harg2 arg3 harg3 arg4 harg4 arg5 harg5 X2 X3 k f
      = [(⟨rowsM k, tripOut (arg2.view.read (Elt F) X2) (arg3.view.read (Elt F) X3) (arg5.view.read (Elt F) f) k⟩ :
          View.Piece (Elt F) S64x512 .f32)] := by
  unfold tripL_k0_t1 trip_k0_t1 tripOut
  rfl

/-- The pieces of the first n trips, over the entry contents `G`. -/
abbrev piecesTo (n : ℕ) : List (View.Piece (Elt F) S64x512 .f32) :=
  pb_k0_t1 (F := F) 𝒱 c bd i arg2 harg2 arg3 harg3 arg4 harg4 arg5 harg5 X2 X3 G n

set_option maxHeartbeats 1000000 in
/-- The buffer read back after the first n trips, written over any contents `base`: trip k < n's rows hold that trip's
    value computed from the ENTRY contents `G`; rows from 8n on read `base`. -/
theorem read_after_trips : ∀ (n : ℕ), n ≤ k0_t1_loop.trips → ∀ base : BufTy.Contents (Elt F) arg5.view.ty,
    (∀ k : Fin k0_t1_loop.trips, k.val < n → ∀ x : S8x512.Idx,
        arg5.view.read (Elt F) (arg5.view.writes (Elt F) base (piecesTo 𝒱 c bd i arg2 harg2 arg3 harg3 arg4 harg4 arg5 harg5 X2 X3 G n)) ((rowsM k).emb x)
          = tripOut (arg2.view.read (Elt F) X2) (arg3.view.read (Elt F) X3) (arg5.view.read (Elt F) G) k x)
    ∧ (∀ y : S64x512.Idx, 8 * n ≤ (y 0).val →
        arg5.view.read (Elt F) (arg5.view.writes (Elt F) base (piecesTo 𝒱 c bd i arg2 harg2 arg3 harg3 arg4 harg4 arg5 harg5 X2 X3 G n)) y
          = arg5.view.read (Elt F) base y) := by
  intro n
  induction n with
  | zero =>
    intro _ base
    exact ⟨fun k hk => absurd hk (Nat.not_lt_zero _), fun y _ => rfl⟩
  | succ n ih =>
    intro hn base
    have hlt : n < k0_t1_loop.trips := hn
    have ih' := ih (Nat.le_of_lt hlt)
    -- the new piece: trip n's rows, its value computed from what the earlier trips left — which, on its rows, is `G`
    have hfound : tripOut (arg2.view.read (Elt F) X2) (arg3.view.read (Elt F) X3)
          (arg5.view.read (Elt F) (arg5.view.writes (Elt F) G (piecesTo 𝒱 c bd i arg2 harg2 arg3 harg3 arg4 harg4 arg5 harg5 X2 X3 G n))) ⟨n, hlt⟩
        = tripOut (arg2.view.read (Elt F) X2) (arg3.view.read (Elt F) X3) (arg5.view.read (Elt F) G) ⟨n, hlt⟩ := by
      exact tripOut_congr _ _ _ _ ⟨n, hlt⟩ fun x => (ih' G).2 _ (by rw [rowsM_emb_row]; exact Nat.le_add_right _ _)
    have hpb : piecesTo 𝒱 c bd i arg2 harg2 arg3 harg3 arg4 harg4 arg5 harg5 X2 X3 G (n + 1)
        = (⟨rowsM ⟨n, hlt⟩, tripOut (arg2.view.read (Elt F) X2) (arg3.view.read (Elt F) X3) (arg5.view.read (Elt F) G) ⟨n, hlt⟩⟩ :
            View.Piece (Elt F) S64x512 .f32)
          :: piecesTo 𝒱 c bd i arg2 harg2 arg3 harg3 arg4 harg4 arg5 harg5 X2 X3 G n := by
      have := pb_k0_t1_succ (F := F) 𝒱 c bd i arg2 harg2 arg3 harg3 arg4 harg4 arg5 harg5 X2 X3 G ⟨n, hlt⟩
      rw [tripL_eq, hfound] at this
      exact this
    rw [hpb]
    refine ⟨fun k hk x => ?_, fun y hy => ?_⟩
    · rcases Nat.lt_succ_iff_lt_or_eq.mp hk with hk' | hk'
      · have hnot : (rowsM k).emb x ∉ (Finset.univ.map (rowsM ⟨n, hlt⟩).emb) := by
          rw [Rect.map_emb_univ]
          intro hm
          have h1 := (mem_rowsM_iff ⟨n, hlt⟩ _ hm).1
          rw [rowsM_emb_row] at h1
          have hx : (x 0).val < 8 := (x 0).isLt
          simp only at h1
          omega
        rw [View.writes_cons, View.read_slice_write_of_not_mem _ _ _ _ hnot]
        exact (ih' base).1 k hk' x
      · obtain rfl : k = ⟨n, hlt⟩ := Fin.ext hk'
        exact View.read_writes_cons_emb arg5.view base (rowsM ⟨n, hlt⟩)
          (tripOut (arg2.view.read (Elt F) X2) (arg3.view.read (Elt F) X3) (arg5.view.read (Elt F) G) ⟨n, hlt⟩)
          (piecesTo 𝒱 c bd i arg2 harg2 arg3 harg3 arg4 harg4 arg5 harg5 X2 X3 G n) x
    · have hnot : y ∉ (Finset.univ.map (rowsM ⟨n, hlt⟩).emb) := by
        rw [Rect.map_emb_univ]
        intro hm
        have h2 := (mem_rowsM_iff ⟨n, hlt⟩ _ hm).2
        simp only at h2
        omega
      rw [View.writes_cons, View.read_slice_write_of_not_mem _ _ _ _ hnot]
      exact (ih' base).2 y (by omega)

/-- After all eight trips, over any contents: the buffer reads `loopOut` of the entry contents everywhere. -/
theorem read_after_loop (base : BufTy.Contents (Elt F) arg5.view.ty) (y : S64x512.Idx) :
    arg5.view.read (Elt F) (arg5.view.writes (Elt F) base
        (piecesTo 𝒱 c bd i arg2 harg2 arg3 harg3 arg4 harg4 arg5 harg5 X2 X3 G k0_t1_loop.trips)) y
      = loopOut (arg2.view.read (Elt F) X2) (arg3.view.read (Elt F) X3) (arg5.view.read (Elt F) G) y := by
  have h := (read_after_trips 𝒱 c bd i arg2 harg2 arg3 harg3 arg4 harg4 arg5 harg5 X2 X3 G k0_t1_loop.trips (Nat.le_refl _) base).1
    (tripOf y) (Fin.isLt _)
    (localOf y)
  rw [← idx_eq_emb y] at h
  exact h

end Loop

end Cert.KernelIdeal.LoopRows

end
-- ==== Proof.CaseRows.lean ====
/-
  What the kernel body leaves at a grid point, case by case, for any float instance.

  The body has three cases, by the tile's position in the sweep over the support axis. At the first tile it fills the
  running-maximum buffer with one constant and then runs the loop over the batch; at a middle tile it runs the
  loop on the buffer as the previous point left it; at the last tile it does the same and then copies the whole
  buffer into the output block. In every case the buffer ends as `loopOut` of the point's query block, its support
  block and the buffer's contents when the loop was entered — the constant fill, or what the previous point left —
  and the last tile's output block is that same array.
-/
import proofs.«127220_j47485158425242_2_alg».proof.Proof.Gen.KernelIdeal.Frame
import proofs.«127220_j47485158425242_2_alg».proof.Proof.LoopRows

set_option maxRecDepth 16384

noncomputable section

namespace Cert.KernelIdeal.CaseRows

open Cert.KernelIdeal Cert.KernelIdeal.Gen Cert.KernelIdeal.LoopRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a store of the whole buffer are zero. -/
theorem hz : (![0, 0] : Fin S64x512.rank → ℕ) = fun _ => 0 := by
  funext a; match a with | ⟨0, _⟩ => rfl | ⟨1, _⟩ => rfl

/-- One store of the whole buffer, read back through any view and over any contents, is the stored array. -/
theorem read_whole_store (v : View sig .tc .vmem S64x512 .f32) (base : v.ty.Contents (Elt F)) (w : S64x512.Idx → Elt F .f32) :
    v.read (Elt F) (v.writes (Elt F) base
      [(⟨Rect.unit ![0, 0] S64x512.size inb_S64x512_S64x512_0_0, w⟩ : View.Piece (Elt F) S64x512 .f32)]) = w := by
  rw [View.read_writes_eq_canon _ _ _ (fun y => ⟨_, List.mem_singleton_self _, View.mem_set_unit_zero hz inb_S64x512_S64x512_0_0 y⟩)]
  exact View.canon_unit_zero hz inb_S64x512_S64x512_0_0 w

section Cases

variable (c : Dev nD) (i : grid0.Coords) (arg2 : Memref sig .tc .vmem S64x64x512 .bf16) (harg2 : arg2.IsWhole) (arg3 : Memref sig .tc .vmem S64x64x256 .bf16) (harg3 : arg3.IsWhole) (arg4 : Memref sig .tc .vmem S64x512 .f32) (harg4 : arg4.IsWhole)

/-- First tile: the buffer is filled with the constant, then the loop runs on it. -/
theorem sout0_A_0_eq (hc0 : cond0_0 i) (hc1 : ¬cond0_1 i) (x0 : Vec F S64x64x512 .bf16) (x1 : Vec F S64x64x256 .bf16) :
    sout0_A_0 c i arg2 harg2 arg3 harg3 arg4 harg4 scM0_0 (Memref.isWhole_whole _) hc0 hc1 x0 x1 = loopOut x0 x1 (k0_pay1 (F := F)) := by
  funext y
  unfold sout0_A_0
  have hL : (kernelRun0_A c i arg2 harg2 arg3 harg3 arg4 harg4 scM0_0 (Memref.isWhole_whole _) hc0 hc1 x0 x1).2.1
      = piecesTo Variants.none c none i arg2 harg2 arg3 harg3 arg4 harg4 scM0_0 (Memref.isWhole_whole _) (harg2.unread x0) (harg3.unread x1)
          (scM0_0.view.writes (Elt F) scM0_0.view.junk
            [(⟨Rect.unit ![0, 0] S64x512.size inb_S64x512_S64x512_0_0, k0_pay1⟩ : View.Piece (Elt F) S64x512 .f32)]) k0_t1_loop.trips
        ++ [(⟨Rect.unit ![0, 0] S64x512.size inb_S64x512_S64x512_0_0, k0_pay1⟩ : View.Piece (Elt F) S64x512 .f32)] := by
    unfold kernelRun0_A; dsimp only; sl_unfold_run_names; rfl
  rw [hL, View.writes_append, read_after_loop, harg2.read_unread, harg3.read_unread, read_whole_store]

/-- Middle tile: the loop runs on what the previous point left. -/
theorem sout0_B_0_eq (hc0 : ¬cond0_0 i) (hc1 : ¬cond0_1 i) (x0 : Vec F S64x64x512 .bf16) (x1 : Vec F S64x64x256 .bf16) (xs0 : Vec F S64x512 .f32) :
    sout0_B_0 c i arg2 harg2 arg3 harg3 arg4 harg4 scM0_0 (Memref.isWhole_whole _) hc0 hc1 x0 x1 xs0 = loopOut x0 x1 xs0 := by
  funext y
  unfold sout0_B_0
  have hL : (kernelRun0_B c i arg2 harg2 arg3 harg3 arg4 harg4 scM0_0 (Memref.isWhole_whole _) hc0 hc1 x0 x1 xs0).2.1
      = piecesTo Variants.none c none i arg2 harg2 arg3 harg3 arg4 harg4 scM0_0 (Memref.isWhole_whole _) (harg2.unread x0) (harg3.unread x1)
          ((Memref.isWhole_whole cc0_scratch0).unread xs0) k0_t1_loop.trips := by
    unfold kernelRun0_B; rfl
  rw [hL, read_after_loop, harg2.read_unread, harg3.read_unread, Memref.IsWhole.read_unread]

/-- Last tile: the buffer, as for a middle tile. -/
theorem sout0_C_0_eq (hc0 : ¬cond0_0 i) (hc1 : cond0_1 i) (x0 : Vec F S64x64x512 .bf16) (x1 : Vec F S64x64x256 .bf16) (xs0 : Vec F S64x512 .f32) :
    sout0_C_0 c i arg2 harg2 arg3 harg3 arg4 harg4 scM0_0 (Memref.isWhole_whole _) hc0 hc1 x0 x1 xs0 = loopOut x0 x1 xs0 := by
  funext y
  unfold sout0_C_0
  have hL : (kernelRun0_C c i arg2 harg2 arg3 harg3 arg4 harg4 scM0_0 (Memref.isWhole_whole _) hc0 hc1 x0 x1 xs0).2.1
      = piecesTo Variants.none c none i arg2 harg2 arg3 harg3 arg4 harg4 scM0_0 (Memref.isWhole_whole _) (harg2.unread x0) (harg3.unread x1)
          ((Memref.isWhole_whole cc0_scratch0).unread xs0) k0_t1_loop.trips := by
    unfold kernelRun0_C; rfl
  rw [hL, read_after_loop, harg2.read_unread, harg3.read_unread, Memref.IsWhole.read_unread]

/-- Last tile: the output block is a copy of the whole buffer after the loop. -/
theorem out0_C_2_eq (hc0 : ¬cond0_0 i) (hc1 : cond0_1 i) (x0 : Vec F S64x64x512 .bf16) (x1 : Vec F S64x64x256 .bf16) (xs0 : Vec F S64x512 .f32) :
    out0_C_2 c i arg2 harg2 arg3 harg3 arg4 harg4 scM0_0 (Memref.isWhole_whole _) hc0 hc1 x0 x1 xs0 = loopOut x0 x1 xs0 := by
  unfold out0_C_2
  have hL : (kernelRun0_C c i arg2 harg2 arg3 harg3 arg4 harg4 scM0_0 (Memref.isWhole_whole _) hc0 hc1 x0 x1 xs0).1
      = [(⟨Rect.unit ![0, 0] S64x512.size inb_S64x512_S64x512_0_0,
            View.ld (Val := Elt F) (scM0_0.view.read (Elt F) (scM0_0.view.writes (Elt F) ((Memref.isWhole_whole cc0_scratch0).unread xs0)
              (piecesTo Variants.none c none i arg2 harg2 arg3 harg3 arg4 harg4 scM0_0 (Memref.isWhole_whole _) (harg2.unread x0) (harg3.unread x1)
                ((Memref.isWhole_whole cc0_scratch0).unread xs0) k0_t1_loop.trips)))
              (Rect.unit ![0, 0] S64x512.size inb_S64x512_S64x512_0_0)⟩ : View.Piece (Elt F) S64x512 .f32)] := by
    unfold kernelRun0_C; dsimp only; sl_unfold_run_names; rfl
  rw [hL, read_whole_store, View.ld_unit_zero hz]
  funext y
  rw [read_after_loop, harg2.read_unread, harg3.read_unread, Memref.IsWhole.read_unread]

end Cases

end Cert.KernelIdeal.CaseRows

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibLastAxis3.lean ====
/-
  Maxima along the LAST axis of a rank-3 array, on the extended reals, for any sizes: the host's maximum from an
  initial value, and a kernel's lane maximum from an accumulator word, are at (p, q) the fold of max from that
  value over the entries (p, q, k). The rank-3 companions of the rank-2 and rank-4 forms for the same axis.
-/
import proofs.«127220_j47485158425242_2_alg».proof.Proof.LibLastAxis

noncomputable section

namespace Cert.Lib.LastAxis3

open Idealize.ShloMosaic Idealize.ShloMosaic.ValueIdx

/-- The host's maximum of a rank-3 array along its last axis, at (p, q): the fold of max from the initial value. -/
theorem hostMax_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel)
    (p : Fin a) (q : Fin b) :
    Host.reduce (FloatOps.maximumf (F := Ideal) (φ := φ)) x v h' hu (ix2 p q)
      = (Finset.univ : Finset (Fin c)).fold max (v ix0) (fun k => x (ix3 p q k)) := by
  rw [Host.reduce_eq_fold_single (FloatOps.maximumf (F := Ideal) (φ := φ)) x v h' h hu, eq_ix0 (Shape.Idx.first hu)]
  exact congrArg (fun f => Finset.fold max (v ix0) f (Finset.univ : Finset (Fin c)))
    (funext fun k => congrArg x (Cert.Lib.LastAxis.lift_last3 h p q k))

/-- A lane maximum of a rank-3 block along its last axis, at (p, q): the fold of max from the accumulator word's value. -/
theorem laneMax_last3 {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => Finset.fold max (FloatOps.ofBits φ acc) f (Finset.univ : Finset (Fin c)))
      (funext fun k => congrArg src (Cert.Lib.LastAxis.lift_last3 h p q k)))

end Cert.Lib.LastAxis3

end
-- ==== Proof.TilePayload.lean ====
/-
  What one trip of the kernel's loop stores, read at an index. The trip holds eight batch entries: a block of
  queries [8, 64, 512], a block of supports [8, 64, 256] and the eight rows [8, 512] of the running maximum. It
  contracts the features (a batched product into the zero accumulator), takes the maximum along the support
  axis from minus infinity, and stores the maximum of that and the running maximum it found.
-/
import proofs.«127220_j47485158425242_2_alg».proof.Proof.Gen.KernelIdeal.Skeleton
import proofs.«127220_j47485158425242_2_alg».proof.Proof.LibLastAxis3
import Idealize.ShloMosaic.Lib.ValueIdx
import Idealize.ShloMosaic.Lib.Pipeline.Value
import Idealize.ShloMosaic.PureOps.Ideal.Laws

noncomputable section

open scoped BigOperators

namespace Cert.KernelIdeal.TilePayload

open Cert.KernelIdeal Cert.KernelIdeal.Gen Idealize.ShloMosaic Idealize.ShloMosaic.ValueIdx

/-! The operand indices of the trip's batched product: axis 0 is the batch axis of both operands, axis 1 the
    contracted one, axis 2 the free one (the query column on the left, the support column on the right). -/

private theorem lhs_0 (i : S8x512x256.Idx) (k : dot_S8x64x512_S8x64x256_S8x512x256_1_1_2_2_0_0.contr.Idx) :
    (dot_S8x64x512_S8x64x256_S8x512x256_1_1_2_2_0_0.lhsIdx i k 0).val = (i 0).val := by
  unfold DotDims.lhsIdx
  rw [dif_pos (show (0 : Fin S8x64x512.rank) ∈ dot_S8x64x512_S8x64x256_S8x512x256_1_1_2_2_0_0.lhsBatch by decide)]
  rfl
private theorem lhs_1 (i : S8x512x256.Idx) (k : dot_S8x64x512_S8x64x256_S8x512x256_1_1_2_2_0_0.contr.Idx) :
    (dot_S8x64x512_S8x64x256_S8x512x256_1_1_2_2_0_0.lhsIdx i k 1).val = (k ⟨0, by decide⟩).val :=
  dot_S8x64x512_S8x64x256_S8x512x256_1_1_2_2_0_0.lhsIdx_val_of_single rfl i k
private theorem lhs_2 (i : S8x512x256.Idx) (k : dot_S8x64x512_S8x64x256_S8x512x256_1_1_2_2_0_0.contr.Idx) :
    (dot_S8x64x512_S8x64x256_S8x512x256_1_1_2_2_0_0.lhsIdx i k 2).val = (i 1).val := by
  unfold DotDims.lhsIdx
  rw [dif_neg (show ¬(2 : Fin S8x64x512.rank) ∈ dot_S8x64x512_S8x64x256_S8x512x256_1_1_2_2_0_0.lhsBatch by decide),
    dif_pos (show (2 : Fin S8x64x512.rank) ∈ dot_S8x64x512_S8x64x256_S8x512x256_1_1_2_2_0_0.lhsNonContracting by decide)]
  rfl
private theorem rhs_0 (i : S8x512x256.Idx) (k : dot_S8x64x512_S8x64x256_S8x512x256_1_1_2_2_0_0.contr.Idx) :
    (dot_S8x64x512_S8x64x256_S8x512x256_1_1_2_2_0_0.rhsIdx i k 0).val = (i 0).val := by
  unfold DotDims.rhsIdx
  rw [dif_pos (show (0 : Fin S8x64x256.rank) ∈ dot_S8x64x512_S8x64x256_S8x512x256_1_1_2_2_0_0.rhsBatch by decide)]
  rfl
private theorem rhs_1 (i : S8x512x256.Idx) (k : dot_S8x64x512_S8x64x256_S8x512x256_1_1_2_2_0_0.contr.Idx) :
    (dot_S8x64x512_S8x64x256_S8x512x256_1_1_2_2_0_0.rhsIdx i k 1).val = (k ⟨0, by decide⟩).val :=
  dot_S8x64x512_S8x64x256_S8x512x256_1_1_2_2_0_0.rhsIdx_val_of_single rfl i k
private theorem rhs_2 (i : S8x512x256.Idx) (k : dot_S8x64x512_S8x64x256_S8x512x256_1_1_2_2_0_0.contr.Idx) :
    (dot_S8x64x512_S8x64x256_S8x512x256_1_1_2_2_0_0.rhsIdx i k 2).val = (i 2).val := by
  unfold DotDims.rhsIdx
  rw [dif_neg (show ¬(2 : Fin S8x64x256.rank) ∈ dot_S8x64x512_S8x64x256_S8x512x256_1_1_2_2_0_0.rhsBatch by decide),
    dif_pos (show (2 : Fin S8x64x256.rank) ∈ dot_S8x64x512_S8x64x256_S8x512x256_1_1_2_2_0_0.rhsNonContracting by decide)]
  rfl

/-- The trip's batched product into the zero accumulator, at (r, q, s'): the inner product over the 64 features of
    query column q and support column s' of batch row r. -/
private theorem tileDot_apply (L : FVec Ideal S8x64x512 .bf16) (R : FVec Ideal S8x64x256 .bf16)
    (r : Fin 8) (q : Fin 512) (s' : Fin 256) :
    matmul (F := Ideal) dot_S8x64x512_S8x64x256_S8x512x256_1_1_2_2_0_0 none L R (constant (F := Ideal) S8x512x256 .f32 0x00000000#32) (ix3 r q s')
      = ∑ d : Fin 64, L (ix3 r d q) * R (ix3 r d s') := by
  refine (Ideal.matmul_constant_zero_apply dot_S8x64x512_S8x64x256_S8x512x256_1_1_2_2_0_0 none L R (ix3 r q s')).trans ?_
  rw [← Equiv.sum_comp (contrEquiv1 dot_S8x64x512_S8x64x256_S8x512x256_1_1_2_2_0_0 64 rfl rfl).symm]
  refine Finset.sum_congr rfl fun d _ => ?_
  have hd := contrEquiv1_symm_val dot_S8x64x512_S8x64x256_S8x512x256_1_1_2_2_0_0 64 rfl rfl d
  have el : dot_S8x64x512_S8x64x256_S8x512x256_1_1_2_2_0_0.lhsIdx (ix3 r q s') ((contrEquiv1 dot_S8x64x512_S8x64x256_S8x512x256_1_1_2_2_0_0 64 rfl rfl).symm d) = ix3 r d q :=
    funext fun a => Fin.ext (by
      match a with
      | ⟨0, _⟩ => exact lhs_0 _ _
      | ⟨1, _⟩ => exact (lhs_1 _ _).trans hd
      | ⟨2, _⟩ => exact lhs_2 _ _)
  have er : dot_S8x64x512_S8x64x256_S8x512x256_1_1_2_2_0_0.rhsIdx (ix3 r q s') ((contrEquiv1 dot_S8x64x512_S8x64x256_S8x512x256_1_1_2_2_0_0 64 rfl rfl).symm d) = ix3 r d s' :=
    funext fun a => Fin.ext (by
      match a with
      | ⟨0, _⟩ => exact rhs_0 _ _
      | ⟨1, _⟩ => exact (rhs_1 _ _).trans hd
      | ⟨2, _⟩ => exact rhs_2 _ _)
  rw [el, er]

/-- The fill the first tile's point stores into the running maximum: the value of the minus-infinity word everywhere. -/
theorem k0_pay1_apply (j : S64x512.Idx) :
    k0_pay1 (F := Ideal) j = FloatOps.ofBits (F := Ideal) .f32 0xFF800000#32 := by
  unfold k0_pay1
  show shapeCast S64x512 (broadcast S64x512 (Scalar.ofBits (F := Ideal) .f32 0xFF800000#32)) shapeCasts_S64x512_S64x512 j = _
  rw [shapeCast_self]
  rfl

/-- The trip's stored value at batch row r (of the trip's eight) and query column q: the maximum of the running
    maximum found there and the tile's maximum, from minus infinity, of the similarities. -/
theorem k0_pay2_apply (v10 : Vec Ideal S8x64x512 .bf16) (v13 : Vec Ideal S8x64x256 .bf16) (v18 : Vec Ideal S8x512 .f32)
    (r : Fin 8) (q : Fin 512) :
    k0_pay2 (F := Ideal) v10 v13 v18 (ix2 r q)
      = max (v18 (ix2 r q))
          ((Finset.univ : Finset (Fin 256)).fold max (FloatOps.ofBits (F := Ideal) .f32 0xFF800000#32)
            (fun s' => ∑ d : Fin 64, v10 (ix3 r d q) * v13 (ix3 r d s'))) := by
  unfold k0_pay2
  show shapeCast S8x512 (maximumf v18 (multiReduction .maximumf [2] S8x512
      (matmul dot_S8x64x512_S8x64x256_S8x512x256_1_1_2_2_0_0 none (shapeCast S8x64x512 v10 shapeCasts_S8x64x512_S8x64x512)
        (shapeCast S8x64x256 v13 shapeCasts_S8x64x256_S8x64x256) (constant (F := Ideal) S8x512x256 .f32 0x00000000#32))
      0xFF800000#32 reduces_S8x512x256_S8x512 (.inl rfl) rfl)) shapeCasts_S8x512_S8x512 (ix2 r q) = _
  rw [shapeCast_self, shapeCast_self, shapeCast_self, maximumf_apply]
  refine congrArg (max (v18 (ix2 r q))) ?_
  have hdot : ∀ s' : Fin 256,
      matmul (F := Ideal) dot_S8x64x512_S8x64x256_S8x512x256_1_1_2_2_0_0 none v10 v13 (constant (F := Ideal) S8x512x256 .f32 0x00000000#32) (ix3 r q s')
        = ∑ d : Fin 64, v10 (ix3 r d q) * v13 (ix3 r d s') :=
    fun s' => tileDot_apply v10 v13 r q s'
  -- of the block of products only the entries (r, q, s'), s' over the tile's support columns, are read
  generalize matmul (F := Ideal) dot_S8x64x512_S8x64x256_S8x512x256_1_1_2_2_0_0 none v10 v13 (constant (F := Ideal) S8x512x256 .f32 0x00000000#32) = y at hdot ⊢
  refine (Cert.Lib.LastAxis3.laneMax_last3 (a := 8) (b := 512) (c := 256) (φ := .f32) y 0xFF800000#32 reduces_S8x512x256_S8x512 (.inl rfl) rfl r q).trans ?_
  exact congrArg (fun f => Finset.fold max _ f (Finset.univ : Finset (Fin 256))) (funext hdot)

end Cert.KernelIdeal.TilePayload

end
-- ==== Proof.LoopAtIdeal.lean ====
/-
  The running-maximum buffer after the loop, on the extended reals, at batch entry b and query column q (of the
  point's 512): the maximum of what the buffer held there when the loop was entered and the tile's maximum, from
  minus infinity, over the point's 256 support columns of the inner product of the features. Row b is local row
  b % 8 of trip b / 8, and that trip's three loads are rows 8·(b / 8) … of the blocks: the trip's value at the local
  index is the value at (b, q) of the whole blocks.
-/
import proofs.«127220_j47485158425242_2_alg».proof.Proof.LoopRows
import proofs.«127220_j47485158425242_2_alg».proof.Proof.TilePayload

set_option maxRecDepth 16384

noncomputable section

open scoped BigOperators

namespace Cert.KernelIdeal.LoopAtIdeal

open Cert.KernelIdeal Cert.KernelIdeal.Gen Cert.KernelIdeal.LoopRows Idealize.ShloMosaic Idealize.ShloMosaic.ValueIdx

/-- Local row r of trip k is row 8k + r of the buffer, -/
theorem rowsM_emb (k : Fin k0_t1_loop.trips) (r : Fin 8) (q : Fin 512) (b : Fin 64) (hb : b.val = 8 * k.val + r.val) :
    (rowsM k).emb (ix2 r q) = ix2 b q := by
  funext a; apply Fin.ext; rw [Rect.emb_apply]
  match a with
  | ⟨0, _⟩ => show k0_off3 k 0 + 1 * r.val = b.val; rw [off3_eq]; simp; omega
  | ⟨1, _⟩ => show k0_off3 k 1 + 1 * q.val = q.val; rw [off3_eq]; simp

/-- of the query block, -/
theorem rowsQ_emb (k : Fin k0_t1_loop.trips) (r : Fin 8) (d : Fin 64) (q : Fin 512) (b : Fin 64) (hb : b.val = 8 * k.val + r.val) :
    (rowsQ k).emb (ix3 r d q) = ix3 b d q := by
  funext a; apply Fin.ext; rw [Rect.emb_apply]
  match a with
  | ⟨0, _⟩ => show k0_off1 k 0 + 1 * r.val = b.val; rw [off1_eq]; simp; omega
  | ⟨1, _⟩ => show k0_off1 k 1 + 1 * d.val = d.val; rw [off1_eq]; simp
  | ⟨2, _⟩ => show k0_off1 k 2 + 1 * q.val = q.val; rw [off1_eq]; simp

/-- and of the support block. -/
theorem rowsK_emb (k : Fin k0_t1_loop.trips) (r : Fin 8) (d : Fin 64) (s : Fin 256) (b : Fin 64) (hb : b.val = 8 * k.val + r.val) :
    (rowsK k).emb (ix3 r d s) = ix3 b d s := by
  funext a; apply Fin.ext; rw [Rect.emb_apply]
  match a with
  | ⟨0, _⟩ => show k0_off2 k 0 + 1 * r.val = b.val; rw [off2_eq]; simp; omega
  | ⟨1, _⟩ => show k0_off2 k 1 + 1 * d.val = d.val; rw [off2_eq]; simp
  | ⟨2, _⟩ => show k0_off2 k 2 + 1 * s.val = s.val; rw [off2_eq]; simp

/-- A trip's value at local row r, column q, on the extended reals, in terms of the whole blocks at row b = 8k + r. -/
theorem tripOut_apply (x0 : Vec Ideal S64x64x512 .bf16) (x1 : Vec Ideal S64x64x256 .bf16) (old : Vec Ideal S64x512 .f32)
    (k : Fin k0_t1_loop.trips) (r : Fin 8) (q : Fin 512) (b : Fin 64) (hb : b.val = 8 * k.val + r.val) :
    tripOut (F := Ideal) x0 x1 old k (ix2 r q)
      = max (old (ix2 b q))
          ((Finset.univ : Finset (Fin 256)).fold max (FloatOps.ofBits (F := Ideal) .f32 0xFF800000#32)
            (fun s' => ∑ d : Fin 64, x0 (ix3 b d q) * x1 (ix3 b d s'))) := by
  unfold tripOut
  rw [TilePayload.k0_pay2_apply]
  have e0 : View.ld (Val := Elt Ideal) old (rowsM k) (ix2 r q) = old (ix2 b q) :=
    congrArg old (rowsM_emb k r q b hb)
  have e1 : ∀ d : Fin 64, View.ld (Val := Elt Ideal) x0 (rowsQ k) (ix3 r d q) = x0 (ix3 b d q) :=
    fun d => congrArg x0 (rowsQ_emb k r d q b hb)
  have e2 : ∀ (d : Fin 64) (s' : Fin 256), View.ld (Val := Elt Ideal) x1 (rowsK k) (ix3 r d s') = x1 (ix3 b d s') :=
    fun d s' => congrArg x1 (rowsK_emb k r d s' b hb)
  rw [e0]
  refine congrArg (max (old (ix2 b q))) (congrArg (fun f => Finset.fold max _ f Finset.univ) (funext fun s' => ?_))
  exact Finset.sum_congr rfl fun d _ => by rw [e1 d, e2 d s']

/-- The buffer after the loop at (b, q). -/
theorem loopOut_apply (x0 : Vec Ideal S64x64x512 .bf16) (x1 : Vec Ideal S64x64x256 .bf16) (old : Vec Ideal S64x512 .f32)
    (b : Fin 64) (q : Fin 512) :
    loopOut (F := Ideal) x0 x1 old (ix2 b q)
      = max (old (ix2 b q))
          ((Finset.univ : Finset (Fin 256)).fold max (FloatOps.ofBits (F := Ideal) .f32 0xFF800000#32)
            (fun s' => ∑ d : Fin 64, x0 (ix3 b d q) * x1 (ix3 b d s'))) := by
  show tripOut (F := Ideal) x0 x1 old (tripOf (ix2 b q)) (localOf (ix2 b q)) = _
  exact tripOut_apply x0 x1 old (tripOf (ix2 b q)) ⟨b.val % 8, Nat.mod_lt _ (by omega)⟩ q b
    (by show b.val = 8 * (b.val / 8) + b.val % 8; omega)

end Cert.KernelIdeal.LoopAtIdeal

end
-- ==== Proof.BestMatchSpec.lean ====
/-
  The common value of the two programs, as one function of the argument arrays, and the order-theoretic
  law that joins the two ways of computing it.

  For a batch entry b, a query column q and a support column s, the similarity is the inner product over the
  64 features,
      sim b q s = sum over d of query[b,d,q] * support[b,d,s].
  The best similarity of (b, q) is the maximum of sim b q s over all 2048 support columns, taken from an
  initial value e (both programs start from the same float word, minus infinity), and the result at b is the
  mean over q of the best similarities, spelt by both programs as (0 + sum over q) / 2048.

  One program takes the maximum over the 2048 columns at once. The other sweeps the columns in eight tiles of
  256: it takes each tile's maximum from e, and folds the tiles' maxima into a running maximum that also starts
  from e. Since a fold of max is the least upper bound of its initial value and its terms, both are the least
  upper bound of e and all 2048 terms: they are equal in any linear order, with no condition on the terms.
-/
import Idealize.ShloMosaic.PureOps.Ideal
import Idealize.ShloMosaic.Lib.ValueIdx

noncomputable section

open scoped BigOperators

namespace BestMatch

open Idealize.ShloMosaic Idealize.ShloMosaic.ValueIdx

/-! ## Maxima over tiles of the support axis -/

section Tiles

variable {α : Type*} [LinearOrder α]

/-- The maximum, from `e`, of the 256 terms of tile `j`: columns 256·j … 256·j + 255. -/
def tileMax (e : α) (f : Fin 2048 → α) (j : Fin 8) : α :=
  (Finset.univ : Finset (Fin 256)).fold max e
    (fun s' => f ⟨256 * j.val + s'.val, by have := j.isLt; have := s'.isLt; omega⟩)

/-- The running maximum, from `e`, of the tiles 0 … n. -/
def runMax (e : α) (f : Fin 2048 → α) (n : ℕ) : α :=
  ((Finset.univ : Finset (Fin 8)).filter fun j => j.val ≤ n).fold max e (tileMax e f)

/-- A tile's maximum is below `c` exactly when `e` and the tile's terms are. -/
theorem tileMax_le_iff (e : α) (f : Fin 2048 → α) (j : Fin 8) (c : α) :
    tileMax e f j ≤ c ↔ e ≤ c ∧ ∀ s : Fin 2048, 256 * j.val ≤ s.val → s.val < 256 * j.val + 256 → f s ≤ c := by
  unfold tileMax
  rw [Finset.fold_max_le]
  refine and_congr_right fun _ => ⟨fun h s h1 h2 => ?_, fun h s' _ => h _ (by show 256 * j.val ≤ 256 * j.val + s'.val; omega)
    (by have := s'.isLt; show 256 * j.val + s'.val < 256 * j.val + 256; omega)⟩
  have := h ⟨s.val - 256 * j.val, by omega⟩ (Finset.mem_univ _)
  have e' : (⟨256 * j.val + (s.val - 256 * j.val), by have := s.isLt; omega⟩ : Fin 2048) = s := Fin.ext (by simp; omega)
  simpa only [e'] using this

/-- The running maximum over the tiles 0 … n is below `c` exactly when `e` and the terms of those tiles are. -/
theorem runMax_le_iff (e : α) (f : Fin 2048 → α) (n : ℕ) (hn : n < 8) (c : α) :
    runMax e f n ≤ c ↔ e ≤ c ∧ ∀ s : Fin 2048, s.val < 256 * (n + 1) → f s ≤ c := by
  unfold runMax
  rw [Finset.fold_max_le]
  refine and_congr_right fun he => ⟨fun h s hs => ?_, fun h j hj => ?_⟩
  · have hj : s.val / 256 < 8 := by have := s.isLt; omega
    have := (tileMax_le_iff e f ⟨s.val / 256, hj⟩ c).mp
      (h ⟨s.val / 256, hj⟩ (Finset.mem_filter.mpr ⟨Finset.mem_univ _, by show s.val / 256 ≤ n; omega⟩))
    exact this.2 s (by show 256 * (s.val / 256) ≤ s.val; omega) (by show s.val < 256 * (s.val / 256) + 256; omega)
  · have hj' : j.val ≤ n := (Finset.mem_filter.mp hj).2
    exact (tileMax_le_iff e f j c).mpr ⟨he, fun s _ h2 => h s (by omega)⟩

/-- After the first tile: the maximum of `e` and that tile's maximum. -/
theorem runMax_zero (e : α) (f : Fin 2048 → α) : runMax e f 0 = max e (tileMax e f 0) := by
  refine eq_of_forall_ge_iff fun c => ?_
  rw [runMax_le_iff e f 0 (by omega), max_le_iff, tileMax_le_iff]
  constructor
  · rintro ⟨he, h⟩; exact ⟨he, he, fun s _ h2 => h s (by simpa using h2)⟩
  · rintro ⟨he, -, h⟩; exact ⟨he, fun s hs => h s (by simp) (by simpa using hs)⟩

/-- One more tile: the maximum of the running maximum so far and the new tile's maximum. -/
theorem runMax_succ (e : α) (f : Fin 2048 → α) (n : ℕ) (hn : n + 1 < 8) :
    runMax e f (n + 1) = max (runMax e f n) (tileMax e f ⟨n + 1, hn⟩) := by
  refine eq_of_forall_ge_iff fun c => ?_
  rw [runMax_le_iff e f (n + 1) hn, max_le_iff, runMax_le_iff e f n (by omega), tileMax_le_iff]
  constructor
  · rintro ⟨he, h⟩
    exact ⟨⟨he, fun s hs => h s (by omega)⟩, he, fun s _ h2 => h s (by simp only at h2; omega)⟩
  · rintro ⟨⟨he, h⟩, -, h'⟩
    refine ⟨he, fun s hs => ?_⟩
    by_cases hlt : s.val < 256 * (n + 1)
    · exact h s hlt
    · exact h' s (by simp only; omega) (by simp only; omega)

/-- After all eight tiles: the maximum, from `e`, of all 2048 terms. -/
theorem runMax_last (e : α) (f : Fin 2048 → α) : runMax e f 7 = (Finset.univ : Finset (Fin 2048)).fold max e f := by
  refine eq_of_forall_ge_iff fun c => ?_
  rw [runMax_le_iff e f 7 (by omega), Finset.fold_max_le]
  exact and_congr_right fun _ => ⟨fun h s _ => h s (by have := s.isLt; omega), fun h s _ => h s (Finset.mem_univ _)⟩

end Tiles

/-! ## The value -/

/-- The shape of both arguments, [batch, feature, column], and of the best similarities, [batch, query column]. -/
abbrev SArg : Shape := ⟨3, ![64, 64, 2048]⟩
abbrev SBest : Shape := ⟨2, ![64, 2048]⟩

/-- The similarity of query column `q` and support column `s` of batch entry `b`: the inner product over the features. -/
def sim (Q K : SArg.Idx → EReal) (b : Fin 64) (q s : Fin 2048) : EReal :=
  ∑ d : Fin 64, Q (ix3 b d q) * K (ix3 b d s)

/-- The best similarity of (b, q): the maximum from `e` over all support columns. -/
def bestAt (e : EReal) (Q K : SArg.Idx → EReal) (b : Fin 64) (q : Fin 2048) : EReal :=
  (Finset.univ : Finset (Fin 2048)).fold max e (sim Q K b q)

/-- The best similarities as an array. -/
def best (e : EReal) (Q K : SArg.Idx → EReal) : SBest.Idx → EReal :=
  fun j => bestAt e Q K (j 0) (j 1)

theorem best_ix2 (e : EReal) (Q K : SArg.Idx → EReal) (b : Fin 64) (q : Fin 2048) :
    best e Q K (ix2 b q) = bestAt e Q K b q := rfl

end BestMatch

end
-- ==== Proof.TileSweep.lean ====
/-
  The sweep over the grid, on the extended reals. The grid has 4 × 8 points: point t handles query tile t / 8
  (512 query columns) and support tile t % 8 (256 support columns), support tiles innermost. The query block at t is
  columns 512·(t / 8) … of the first operand array, the support block columns 256·(t % 8) … of the second. Along one
  query tile the running-maximum buffer goes: at support tile 0, the maximum of minus infinity and that tile's maximum;
  at each later tile, the maximum of what the previous point left and the new tile's maximum. So after point t it holds,
  at batch entry b and local query column ql, the running maximum over the support tiles 0 … t % 8 of the similarities
  of (b, 512·(t / 8) + ql); and at the last support tile the output block is that buffer: the best similarities.
-/
import proofs.«127220_j47485158425242_2_alg».proof.Proof.Gen.KernelIdeal.Frame
import proofs.«127220_j47485158425242_2_alg».proof.Proof.CaseRows
import proofs.«127220_j47485158425242_2_alg».proof.Proof.LoopAtIdeal
import proofs.«127220_j47485158425242_2_alg».proof.Proof.BestMatchSpec

set_option maxRecDepth 16384

noncomputable section

open scoped BigOperators

namespace Cert.KernelIdeal.TileSweep

open Cert.KernelIdeal Cert.KernelIdeal.Gen Cert.KernelIdeal.LoopRows
open Idealize.ShloMosaic Idealize.ShloMosaic.TcCoe Idealize.ShloMosaic.ValueIdx Idealize.SL.Sem

variable (m : (ℓ : Loc nD τ sig) → Buf (Elt Ideal) ℓ) (c : Dev nD)

/-- The value of the minus-infinity word, from which every maximum here starts. -/
abbrev negInf : EReal := FloatOps.ofBits (F := Ideal) .f32 0xFF800000#32

/-- The kernel's two operand arrays as the region finds them. -/
abbrev Qv : BestMatch.SArg.Idx → EReal := V (F := Ideal) m c main_v0
abbrev Kv : BestMatch.SArg.Idx → EReal := V (F := Ideal) m c main_v1

/-- The query block and the support block of point t. -/
abbrev qblk (t : Fin cfg0.N) : Vec Ideal S64x64x512 .bf16 := iblk (F := Ideal) m c 0 t
abbrev kblk (t : Fin cfg0.N) : Vec Ideal S64x64x256 .bf16 := iblk (F := Ideal) m c 1 t

theorem lt32 (t : Fin cfg0.N) : t.val < 32 := lt_of_lt_of_eq t.isLt (show cfg0.N = 32 from N_0)

/-- Local query column ql of point t is column 512·(t / 8) + ql; local support column s' is column 256·(t % 8) + s'. -/
def qcol (t : Fin cfg0.N) (ql : Fin 512) : Fin 2048 := ⟨512 * (t.val / 8) + ql.val, by have := lt32 t; omega⟩
def scol (t : Fin cfg0.N) (s' : Fin 256) : Fin 2048 := ⟨256 * (t.val % 8) + s'.val, by omega⟩

/-- The windows' block indices over the grid: the query window moves with t / 8 along its last axis, the support
    window with t % 8, the output window with t / 8. -/
theorem idx_facts : ∀ t : Fin cfg0.N,
    win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8
    ∧ win0_2.index t (0 : Fin 2) = 0 ∧ win0_2.index t (1 : Fin 2) = t.val / 8 :=
  (by decide +kernel : ∀ t : Fin grid0.N, _)

theorem qblk_apply (t : Fin cfg0.N) (b d : Fin 64) (ql : Fin 512) :
    qblk m c t (ix3 b d ql) = Qv m c (ix3 b d (qcol t ql)) := by
  obtain ⟨e0, e1, e2, -⟩ := idx_facts t
  show V (F := Ideal) m c main_v0 (((cfg0.win 0).blk t).view.emb (ix3 b d ql)) = V (F := Ideal) m c main_v0 (ix3 b d (qcol t ql))
  refine congrArg _ (funext fun a => Fin.ext ?_)
  match a with
  | ⟨0, _⟩ => show win0_0.index t (0 : Fin 3) * 64 + 1 * b.val = b.val; omega
  | ⟨1, _⟩ => show win0_0.index t (1 : Fin 3) * 64 + 1 * d.val = d.val; omega
  | ⟨2, _⟩ => show win0_0.index t (2 : Fin 3) * 512 + 1 * ql.val = 512 * (t.val / 8) + ql.val; omega

theorem kblk_apply (t : Fin cfg0.N) (b d : Fin 64) (s' : Fin 256) :
    kblk m c t (ix3 b d s') = Kv m c (ix3 b d (scol t s')) := by
  obtain ⟨-, -, -, e0, e1, e2, -⟩ := idx_facts t
  show V (F := Ideal) m c main_v1 (((cfg0.win 1).blk t).view.emb (ix3 b d s')) = V (F := Ideal) m c main_v1 (ix3 b d (scol t s'))
  refine congrArg _ (funext fun a => Fin.ext ?_)
  match a with
  | ⟨0, _⟩ => show win0_1.index t (0 : Fin 3) * 64 + 1 * b.val = b.val; omega
  | ⟨1, _⟩ => show win0_1.index t (1 : Fin 3) * 64 + 1 * d.val = d.val; omega
  | ⟨2, _⟩ => show win0_1.index t (2 : Fin 3) * 256 + 1 * s'.val = 256 * (t.val % 8) + s'.val; omega

/-- The maximum over point t's support columns, in the point's blocks, is tile t % 8's maximum of the similarities. -/
theorem tile_eq (t : Fin cfg0.N) (b : Fin 64) (ql : Fin 512) :
    (Finset.univ : Finset (Fin 256)).fold max negInf (fun s' => ∑ d : Fin 64, qblk m c t (ix3 b d ql) * kblk m c t (ix3 b d s'))
      = BestMatch.tileMax negInf (BestMatch.sim (Qv m c) (Kv m c) b (qcol t ql)) ⟨t.val % 8, Nat.mod_lt _ (by omega)⟩ := by
  unfold BestMatch.tileMax BestMatch.sim
  refine congrArg (fun f => Finset.fold max negInf f (Finset.univ : Finset (Fin 256))) (funext fun s' => ?_)
  refine Finset.sum_congr rfl fun d _ => ?_
  rw [qblk_apply, kblk_apply]
  rfl

/-! ## The running maximum along one query tile -/

/-- At support tile 0 the buffer becomes the maximum of minus infinity and the tile's maximum: the running maximum
    over the tiles 0 … 0. -/
theorem step_first {α : Type*} [LinearOrder α] (e : α) (f : Fin 2048 → α) (j : Fin 8) (hj : j.val = 0) :
    max e (BestMatch.tileMax e f j) = BestMatch.runMax e f j.val := by
  obtain rfl : j = 0 := Fin.ext hj
  exact (BestMatch.runMax_zero e f).symm

/-- At a later support tile j = k + 1 the buffer becomes the maximum of the running maximum over 0 … k and tile j's
    maximum: the running maximum over 0 … j. -/
theorem step_next {α : Type*} [LinearOrder α] (e : α) (f : Fin 2048 → α) (j : Fin 8) (k : ℕ) (hk : j.val = k + 1) :
    max (BestMatch.runMax e f k) (BestMatch.tileMax e f j) = BestMatch.runMax e f j.val := by
  have hlt : k + 1 < 8 := hk ▸ j.isLt
  obtain rfl : j = ⟨k + 1, hlt⟩ := Fin.ext hk
  exact (BestMatch.runMax_succ e f k hlt).symm

/-- After point n the running-maximum buffer holds, at batch entry b and local query column ql, the running maximum
    over the support tiles 0 … n % 8 of the similarities of (b, 512·(n / 8) + ql). -/
theorem scratch_after : ∀ (n : ℕ) (hn : n < cfg0.N) (b : Fin 64) (ql : Fin 512),
    (outsAt0 (F := Ideal) m c n hn).2 (ix2 b ql)
      = BestMatch.runMax negInf (BestMatch.sim (Qv m c) (Kv m c) b (qcol ⟨n, hn⟩ ql)) (n % 8) := by
  intro n
  induction n using Nat.strong_induction_on with
  | _ n ih =>
    intro hn b ql
    have hN : n < 32 := lt32 ⟨n, hn⟩
    by_cases h0 : n % 8 = 0
    · have h1 : ¬ n % 8 = 7 := by omega
      have e := congrArg Prod.snd (outsAt0_A (F := Ideal) m c ⟨n, hn⟩ h0 h1)
      dsimp only at e
      rw [e, CaseRows.sout0_A_0_eq, LoopAtIdeal.loopOut_apply, TilePayload.k0_pay1_apply]
      exact (congrArg (max negInf) (tile_eq m c ⟨n, hn⟩ b ql)).trans
        (step_first negInf _ ⟨n % 8, Nat.mod_lt _ (by omega)⟩ h0)
    · have hprev : n - 1 < n := by omega
      have hq : qcol ⟨n - 1, lt_trans hprev hn⟩ ql = qcol ⟨n, hn⟩ ql :=
        Fin.ext (by show 512 * ((n - 1) / 8) + ql.val = 512 * (n / 8) + ql.val; omega)
      have hk : n % 8 = (n - 1) % 8 + 1 := by omega
      have hold := ih (n - 1) hprev (lt_trans hprev hn) b ql
      rw [hq] at hold
      by_cases h1 : n % 8 = 7
      · have e := congrArg Prod.snd (outsAt0_C (F := Ideal) m c ⟨n, hn⟩ h0 h1)
        dsimp only at e
        rw [e, CaseRows.sout0_C_0_eq, LoopAtIdeal.loopOut_apply, hold]
        exact (congrArg (max _) (tile_eq m c ⟨n, hn⟩ b ql)).trans
          (step_next negInf _ ⟨n % 8, Nat.mod_lt _ (by omega)⟩ ((n - 1) % 8) hk)
      · have e := congrArg Prod.snd (outsAt0_B (F := Ideal) m c ⟨n, hn⟩ h0 h1)
        dsimp only at e
        rw [e, CaseRows.sout0_B_0_eq, LoopAtIdeal.loopOut_apply, hold]
        exact (congrArg (max _) (tile_eq m c ⟨n, hn⟩ b ql)).trans
          (step_next negInf _ ⟨n % 8, Nat.mod_lt _ (by omega)⟩ ((n - 1) % 8) hk)

/-- At the last support tile the output block is the buffer after the loop: the best similarities of the point's
    512 query columns. -/
theorem out_block (t : Fin cfg0.N) (h7 : t.val % 8 = 7) (b : Fin 64) (ql : Fin 512) :
    (outsAt0 (F := Ideal) m c t.val t.isLt).1 (ix2 b ql)
      = BestMatch.best negInf (Qv m c) (Kv m c) (ix2 b (qcol t ql)) := by
  have h0 : ¬ t.val % 8 = 0 := by omega
  have e := outsAt0_C (F := Ideal) m c t h0 h7
  have e1 : (outsAt0 (F := Ideal) m c t.val t.isLt).1 = (outsAt0 (F := Ideal) m c t.val t.isLt).2 := by
    rw [e]; dsimp only; rw [CaseRows.out0_C_2_eq, CaseRows.sout0_C_0_eq]
  rw [e1, scratch_after m c t.val t.isLt b ql, BestMatch.best_ix2]
  show BestMatch.runMax negInf (BestMatch.sim (Qv m c) (Kv m c) b (qcol t ql)) (t.val % 8) = _
  rw [h7, BestMatch.runMax_last]
  rfl

end Cert.KernelIdeal.TileSweep

end
-- ==== Proof.MeanTail.lean ====
/-
  The last steps both programs share: from the array of best similarities [64, 2048], the sum along the query axis
  from zero, divided by 2048 — the mean over the query columns, spelt (0 + sum) / 2048. Both programs apply exactly
  these operations to their array of best similarities, so the proof never opens them: equal arrays in, equal means out.
-/
import Idealize.ShloMosaic.PureOps.Ideal
import Idealize.ShloMosaic.Lib.ValueIdx

noncomputable section

namespace BestMatch

open Idealize.ShloMosaic

/-- The mean over the query columns, as both programs spell it. -/
def meanTail (y : FVec Ideal ⟨2, ![64, 2048]⟩ .f32) : FVec Ideal ⟨1, ![64]⟩ .f32 :=
  Host.divf
    (Host.reduceAdd y (constant (F := Ideal) ⟨0, ![]⟩ .f32 0x00000000#32)
      (by decide : (⟨2, ![64, 2048]⟩ : Shape).ReducesTo [1] ⟨1, ![64]⟩) (by decide : 0 < (⟨0, ![]⟩ : Shape).numel))
    (broadcastInDim ⟨1, ![64]⟩ ![]
      (by decide : (⟨0, ![]⟩ : Shape).BroadcastsInDim ⟨1, ![64]⟩ (![] : Fin 0 → Fin (⟨1, ![64]⟩ : Shape).rank))
      (constant (F := Ideal) ⟨0, ![]⟩ .f32 0x45000000#32))

end BestMatch

end
-- ==== Proof.HostEnds.lean ====
/-
  The host operations around the kernel, on the extended reals. Before the kernel both arguments are converted to
  a narrower float format, which on the extended reals changes nothing: the kernel's two operand arrays ARE the two
  arguments. After the kernel the result is the mean over the query columns of the kernel's output array.
-/
import proofs.«127220_j47485158425242_2_alg».proof.Proof.Gen.KernelIdeal.Frame
import proofs.«127220_j47485158425242_2_alg».proof.Proof.MeanTail
import Idealize.ShloMosaic.Lib.StableHlo.Run

set_option maxRecDepth 16384

noncomputable section

namespace Cert.KernelIdeal.HostEnds

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The kernel's first operand array, as the region finds it, is the first argument. -/
theorem V_main_v0 (c : Dev nD) :
    (V (F := Ideal) m c main_v0 : S64x64x2048.Idx → EReal) = (m ((c : Thread nD τ).loc main_arg0) : S64x64x2048.Idx → EReal) := by
  -- the one host line writing this array is the format change of the first argument: the identity on extended reals
  show StableHlo.after hostOps0 (fun b => m (c, b)) (Proc.devRef .tc main_v0) = _
  after_results
  rfl

/-- The kernel's second operand array, as the region finds it, is the second argument. -/
theorem V_main_v1 (c : Dev nD) :
    (V (F := Ideal) m c main_v1 : S64x64x2048.Idx → EReal) = (m ((c : Thread nD τ).loc main_arg1) : S64x64x2048.Idx → EReal) := by
  -- the one host line writing this array is the format change of the second argument: the identity on extended reals
  show StableHlo.after hostOps0 (fun b => m (c, b)) (Proc.devRef .tc main_v1) = _
  after_results
  rfl

/-- The program's result after the host operations that follow the kernel: the mean over the query columns of the
    kernel's output array as the region leaves it. -/
theorem tail_main_v5 (c : Dev nD) :
    (Pipeline.afterTail₀ cfgs (dats (F := Ideal) m) 0 (V0 m) [hostOps1] c main_v5 : S64.Idx → EReal)
      = BestMatch.meanTail ((dats (F := Ideal) m 0 c).arrAt 2 cfg0.N : S64x2048.Idx → EReal) := by
  unfold Pipeline.afterTail₀
  show StableHlo.after hostOps1 _ (Proc.devRef .tc main_v5) = _
  after_results
  -- the sum's operand is the kernel's output array, the third window's, as the region leaves it
  have e : Pipeline.withArrays (cfgs 0).spec c (V0 m c) (fun w => (dats (F := Ideal) m 0 c).arrAt w (cfgs 0).N)
      (Proc.devRef .tc main_v2) = (dats (F := Ideal) m 0 c).arrAt 2 cfg0.N :=
    Pipeline.withArrays_arr spec0 launch0.win.arr_inj c _ _ 2
  rw [e]
  -- the same operations applied to the same array: the array itself plays no part
  generalize (dats (F := Ideal) m 0 c).arrAt 2 cfg0.N = y
  rfl

end Cert.KernelIdeal.HostEnds

end
-- ==== Proof.KernelValue.lean ====
/-
  The idealized kernel's result. The output array [64, 2048] is written back only at the last support tile of each
  query tile: point t = 8·qi + 7 writes back columns 512·qi … 512·qi + 511, all 64 rows, and what it writes is
  the best similarities of those columns. The four written blocks tile the array, so after the region the array is
  the best similarities of the two operand arrays — which are the two arguments — and the program's result is their
  mean over the query columns.
-/
import proofs.«127220_j47485158425242_2_alg».proof.Proof.TileSweep
import proofs.«127220_j47485158425242_2_alg».proof.Proof.HostEnds
import Idealize.ShloMosaic.Lib.Pipeline.Value

set_option maxRecDepth 16384

noncomputable section

namespace Cert.KernelIdeal.KernelValue

open Cert.KernelIdeal Cert.KernelIdeal.Gen Cert.KernelIdeal.TileSweep
open Idealize.ShloMosaic Idealize.ShloMosaic.TcCoe Idealize.ShloMosaic.ValueIdx Idealize.SL.Sem

variable (m : (ℓ : Loc nD τ sig) → Buf (Elt Ideal) ℓ) (ρ : Dev nD → PrngReg)

/-- The output window is written back exactly at the last support tile of each query tile. -/
theorem flush_iff : ∀ t : Fin cfg0.N, (cfg0.win 2).flush t = true ↔ t.val % 8 = 7 :=
  (by decide +kernel : ∀ t : Fin grid0.N, _)

/-- What such a point writes back is its block of the best similarities. -/
theorem flushed_eq (c : Dev nD) (t : Fin cfg0.N) (hf : (cfg0.win 2).flush t = true) :
    (dats (F := Ideal) m 0 c).flushed 2 t
      = ((cfg0.win 2).blk t).view.read (Elt Ideal) (BestMatch.best negInf (Qv m c) (Kv m c)) := by
  have h7 : t.val % 8 = 7 := (flush_iff t).mp hf
  obtain ⟨-, -, -, -, -, -, e0, e1⟩ := idx_facts t
  show (cfg0.win 2).cut (grid0.coords t) ((dats (F := Ideal) m 0 c).after 2 t) = _
  rw [after0_2]
  funext j
  obtain ⟨b, ql, rfl⟩ : ∃ (b : Fin 64) (ql : Fin 512), j = ix2 b ql := ⟨j 0, j 1, eq_ix2 j⟩
  show (outsAt0 (F := Ideal) m c t.val t.isLt).1 (ix2 b ql)
    = BestMatch.best negInf (Qv m c) (Kv m c) (((cfg0.win 2).blk t).view.emb (ix2 b ql))
  rw [out_block m c t h7 b ql]
  refine congrArg _ (funext fun a => Fin.ext ?_)
  match a with
  | ⟨0, _⟩ => show b.val = win0_2.index t (0 : Fin 2) * 64 + 1 * b.val; omega
  | ⟨1, _⟩ => show 512 * (t.val / 8) + ql.val = win0_2.index t (1 : Fin 2) * 512 + 1 * ql.val; omega

/-- An index of the array is in point t's block iff each coordinate is in the block's range on its axis. -/
theorem mem_blk (t : Fin cfg0.N) (i : S64x2048.Idx) :
    i ∈ ((cfg0.win 2).blk t).view.set
      ↔ ∀ a : Fin 2, win0_2.index t a * S64x512.size a ≤ (i a).val ∧ (i a).val < win0_2.index t a * S64x512.size a + S64x512.size a := by
  show i ∈ ((View.whole main_v2).slice (win0_2.rect t)).set ↔ _
  rw [View.set_slice_whole, Rect.mem_set_unit]
  exact Iff.rfl

/-- Every index of the array is in the block some last-tile point writes back: column q belongs to query tile q / 512. -/
theorem cover (i : S64x2048.Idx) :
    ∃ t : Fin cfg0.N, (cfg0.win 2).flush t = true ∧ i ∈ ((cfg0.win 2).blk t).view.set := by
  have hi0 : (i 0).val < 64 := (i 0).isLt
  have hi1 : (i 1).val < 2048 := (i 1).isLt
  have hN : cfg0.N = 32 := N_0
  let t : Fin cfg0.N := ⟨8 * ((i 1).val / 512) + 7, by omega⟩
  obtain ⟨-, -, -, -, -, -, e0, e1⟩ := idx_facts t
  have ht : t.val = 8 * ((i 1).val / 512) + 7 := rfl
  refine ⟨t, (flush_iff t).mpr (by omega), ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 512 ≤ (i 1).val ∧ (i 1).val < win0_2.index t (1 : Fin 2) * 512 + 512; omega

/-- After the region the output array is the best similarities of the two operand arrays. -/
theorem array_eq (c : Dev nD) :
    (dats (F := Ideal) m 0 c).arrAt 2 cfg0.N = BestMatch.best negInf (Qv m c) (Kv m c) :=
  (dats (F := Ideal) m 0 c).arrAt_eq_of_cover 2 (BestMatch.best negInf (Qv m c) (Kv m c))
    (fun t hf => flushed_eq m c t hf) (fun i => cover i)

/-- The result of the idealized kernel program, as a function of its two arguments. -/
def result (c : Dev nD) : S64.Idx → EReal :=
  BestMatch.meanTail (BestMatch.best negInf (m ((c : Thread nD τ).loc main_arg0)) (m ((c : Thread nD τ).loc main_arg1)))

/-- Every weakly fair execution of the idealized kernel program terminates with the result array at `result` and the
    two arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main (F := Ideal) m ρ)
  · refine ((h c).2 main_v5 (Pipeline.mem_restRefs_of main_v5 (by decide) (by decide))).trans ?_
    refine (HostEnds.tail_main_v5 m c).trans ?_
    unfold result
    rw [array_eq m c]
    show BestMatch.meanTail (BestMatch.best negInf (V (F := Ideal) m c main_v0) (V (F := Ideal) m c main_v1)) = _
    rw [HostEnds.V_main_v0 m c, HostEnds.V_main_v1 m c]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.KernelValue

end
-- ==== Proof.RefBest.lean ====
/-
  The reference's best similarities. Its dot_general contracts the features of query and support for every
  batch entry, giving sim b q s at [b, q, s]; its maximum along the last axis from minus infinity is, at (b, q),
  the fold of max over all 2048 support columns: the array of best similarities.
-/
import proofs.«127220_j47485158425242_2_alg».proof.Proof.Gen.ReferenceIdeal.Read
import proofs.«127220_j47485158425242_2_alg».proof.Proof.BestMatchSpec
import proofs.«127220_j47485158425242_2_alg».proof.Proof.LibLastAxis3

noncomputable section

open scoped BigOperators

namespace Cert.ReferenceIdeal.RefBest

open Cert.ReferenceIdeal Cert.ReferenceIdeal.Gen Idealize.ShloMosaic Idealize.ShloMosaic.ValueIdx

/-- The reference's batched product at (b, q, s) is the similarity of query column q and support column s of batch
    entry b: the contraction runs over the 64 features, reading the query at (b, d, q) and the support at (b, d, s). -/
private theorem val_main_v0_ix3 (x0 x1 : (⟨S64x64x2048, .f32⟩ : BufTy).Contents (Elt Ideal)) (b : Fin 64) (q s : Fin 2048) :
    Cert.ReferenceIdeal.Read.val_main_v0 (F := Ideal) x0 x1 (ix3 b q s) = BestMatch.sim x0 x1 b q s := by
  rw [Cert.ReferenceIdeal.Read.val_main_v0_apply]
  unfold BestMatch.sim
  refine Finset.sum_congr rfl fun d _ => ?_
  have el : Cert.ReferenceIdeal.Read.lidx_main_v0 (ix3 b q s) d = ix3 b d q :=
    funext fun a => Fin.ext (by match a with | ⟨0, _⟩ => rfl | ⟨1, _⟩ => rfl | ⟨2, _⟩ => rfl)
  have er : Cert.ReferenceIdeal.Read.ridx_main_v0 (ix3 b q s) d = ix3 b d s :=
    funext fun a => Fin.ext (by match a with | ⟨0, _⟩ => rfl | ⟨1, _⟩ => rfl | ⟨2, _⟩ => rfl)
  rw [el, er]

/-- The reference's stage after its maximum over the support columns is the array of best similarities of its
    two arguments, from the value of the minus-infinity word. -/
theorem val_main_v1_eq_best (x0 x1 : (⟨S64x64x2048, .f32⟩ : BufTy).Contents (Elt Ideal)) :
    Cert.ReferenceIdeal.Read.val_main_v1 (F := Ideal) x0 x1
      = BestMatch.best (FloatOps.ofBits (F := Ideal) .f32 0xFF800000#32) x0 x1 := by
  funext j
  obtain ⟨b, q, rfl⟩ : ∃ (b : Fin 64) (q : Fin 2048), j = ix2 b q := ⟨j 0, j 1, eq_ix2 j⟩
  rw [BestMatch.best_ix2]
  unfold BestMatch.bestAt Cert.ReferenceIdeal.Read.val_main_v1
  have hsim : ∀ s : Fin 2048,
      Cert.ReferenceIdeal.Read.val_main_v0 (F := Ideal) x0 x1 (ix3 b q s) = BestMatch.sim x0 x1 b q s :=
    fun s => val_main_v0_ix3 x0 x1 b q s
  -- of the product array only the entries (b, q, s), s over the support columns, are read
  generalize Cert.ReferenceIdeal.Read.val_main_v0 (F := Ideal) x0 x1 = y at hsim ⊢
  refine (Cert.Lib.LastAxis3.hostMax_last3 y _ reducesTo_S64x2048x2048_S64x2048_d2 (by decide) h_S_ b q).trans ?_
  exact congrArg (fun f => Finset.fold max _ f (Finset.univ : Finset (Fin 2048))) (funext hsim)

end Cert.ReferenceIdeal.RefBest

end
-- ==== Proof.RefValue.lean ====
/-
  The reference's result: the term its run ends at is the mean over the query columns of the best similarities of
  its two arguments — its last three operations are the shared mean, applied to its maximum over the support columns
  of its batched product, which is the array of best similarities.
-/
import proofs.«127220_j47485158425242_2_alg».proof.Proof.Gen.ReferenceIdeal.Read
import proofs.«127220_j47485158425242_2_alg».proof.Proof.RefBest
import proofs.«127220_j47485158425242_2_alg».proof.Proof.MeanTail

noncomputable section

namespace Cert.ReferenceIdeal.RefValue

open Cert.ReferenceIdeal Cert.ReferenceIdeal.Gen Idealize.ShloMosaic

/-- The reference's last stage is the shared mean of its stage of best similarities. -/
theorem val_main_v4_eq_mean (x0 x1 : (⟨S64x64x2048, .f32⟩ : BufTy).Contents (Elt Ideal)) :
    Cert.ReferenceIdeal.Read.val_main_v4 (F := Ideal) x0 x1
      = BestMatch.meanTail (Cert.ReferenceIdeal.Read.val_main_v1 (F := Ideal) x0 x1) := rfl

/-- The reference's result stage is the mean of the best similarities of the arguments (the term its run states is
    this stage, by the generated equation). -/
theorem result_eq (x0 x1 : (⟨S64x64x2048, .f32⟩ : BufTy).Contents (Elt Ideal)) :
    Cert.ReferenceIdeal.Read.val_main_v4 (F := Ideal) x0 x1
      = BestMatch.meanTail (BestMatch.best (FloatOps.ofBits (F := Ideal) .f32 0xFF800000#32) x0 x1) := by
  rw [val_main_v4_eq_mean, Cert.ReferenceIdeal.RefBest.val_main_v1_eq_best]

end Cert.ReferenceIdeal.RefValue

end
-- ==== Proof.lean ====
/-
  Best-match distance: for each batch entry b, the mean over the 2048 query columns q of the best similarity
      max over s of (sum over d of query[b,d,q] * support[b,d,s]).

  The kernel program narrows both arguments to a shorter float format (no change on the extended reals), sweeps the
  support columns in eight tiles of 256 for each of four tiles of 512 query columns, keeping a running maximum from
  minus infinity that it updates eight batch rows at a time, writes the running maximum out after the last support
  tile, and takes the mean on the host. The reference contracts the features for all column pairs at once, takes the
  maximum along the support axis from minus infinity, and takes the same mean.

  On the extended reals both results are the shared mean of ONE array, the best similarities of the two arguments:
  a fold of max is the least upper bound of its start value and its terms, so the tiled running maximum and the single
  maximum agree, with no condition on the inputs (finiteness is not used). The frames of the two kernel programs are
  the generated frame certificates; the reference's frame is its generated run with the result dropped; the kernel's
  idealization rewrote nothing, so nothing is to be preserved.
-/
import proofs.«127220_j47485158425242_2_alg».proof.Defs
import proofs.«127220_j47485158425242_2_alg».proof.Proof.Gen.Kernel
import proofs.«127220_j47485158425242_2_alg».proof.Proof.Gen.Kernel.Skeleton
import proofs.«127220_j47485158425242_2_alg».proof.Proof.Gen.Kernel.Loops
import proofs.«127220_j47485158425242_2_alg».proof.Proof.Gen.Kernel.Launch
import proofs.«127220_j47485158425242_2_alg».proof.Proof.Gen.Kernel.Points
import proofs.«127220_j47485158425242_2_alg».proof.Proof.Gen.Kernel.Frame
import proofs.«127220_j47485158425242_2_alg».proof.Proof.Gen.KernelIdeal
import proofs.«127220_j47485158425242_2_alg».proof.Proof.Gen.KernelIdeal.Skeleton
import proofs.«127220_j47485158425242_2_alg».proof.Proof.Gen.KernelIdeal.Loops
import proofs.«127220_j47485158425242_2_alg».proof.Proof.Gen.KernelIdeal.Launch
import proofs.«127220_j47485158425242_2_alg».proof.Proof.Gen.KernelIdeal.Points
import proofs.«127220_j47485158425242_2_alg».proof.Proof.Gen.KernelIdeal.Frame
import proofs.«127220_j47485158425242_2_alg».proof.Proof.Gen.ReferenceIdeal
import proofs.«127220_j47485158425242_2_alg».proof.Proof.Gen.ReferenceIdeal.Run
import proofs.«127220_j47485158425242_2_alg».proof.Proof.Gen.ReferenceIdeal.Read
import proofs.«127220_j47485158425242_2_alg».proof.Proof.Gen.Pre_finite_inputs
import Idealize.ShloMosaic.Adequacy
import Idealize.ShloMosaic.Init
import proofs.«127220_j47485158425242_2_alg».proof.Proof.KernelValue
import proofs.«127220_j47485158425242_2_alg».proof.Proof.RefValue

noncomputable section

namespace Cert.Proof

open Idealize.ShloMosaic Idealize.SL.Sem

/-- From memories that agree on the two arguments, the idealized kernel program and the idealized reference both run
    to the end, with equal results: the kernel's run ends at the mean of the best similarities of its arguments, and
    the term the reference's run ends at is that same function of the same arguments. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v4_eq]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic (hKernelIdeal := Cert.KernelIdeal.Gen.facts) (hReferenceIdeal := Cert.ReferenceIdeal.Gen.facts)
    (hPre_finite_inputs := Cert.Pre_finite_inputs.Gen.facts)⟩

end Cert.Proof

end
